-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32x28x28 : Shape := ⟨5, ![16, 64, 32, 28, 28]⟩
abbrev S_ : Shape := ⟨0, ![]⟩

class Facts : Prop where
  bcast_S_S16x64x32x28x28 : S_.BroadcastsInDim S16x64x32x28x28 (![] : Fin 0 → Fin S16x64x32x28x28.rank)
  reducesTo_S16x64x32x28x28_S_d0_1_2_3_4 : S16x64x32x28x28.ReducesTo [0, 1, 2, 3, 4] S_
  h_S_ : 0 < S_.numel

variable [Facts]

def fn {F : FTy → Type} [FloatOps F] (main_arg0 : FVec F S16x64x32x28x28 .f32) (main_arg1 : FVec F S16x64x32x28x28 .f32) : IVec S_ 1 :=
  let main_v0 : FVec F S16x64x32x28x28 .f32 := Host.absf main_arg0
  let main_cst : FVec F S_ .f32 := constant S_ .f32 0x7F800000#32
  let main_v1 : FVec F S16x64x32x28x28 .f32 := broadcastInDim S16x64x32x28x28 ![] bcast_S_S16x64x32x28x28 main_cst
  let main_v2 : IVec S16x64x32x28x28 1 := cmpf .olt main_v0 main_v1
  let main_c : IVec S_ 1 := constantI S_ 1 1#1
  let main_v3 : IVec S_ 1 := (fun x v => Host.reduce IntOp.andi x v reducesTo_S16x64x32x28x28_S_d0_1_2_3_4 h_S_) main_v2 main_c
  let main_v4 : FVec F S16x64x32x28x28 .f32 := Host.absf main_arg1
  let main_cst_0 : FVec F S_ .f32 := constant S_ .f32 0x7F800000#32
  let main_v5 : FVec F S16x64x32x28x28 .f32 := broadcastInDim S16x64x32x28x28 ![] bcast_S_S16x64x32x28x28 main_cst_0
  let main_v6 : IVec S16x64x32x28x28 1 := cmpf .olt main_v4 main_v5
  let main_c_1 : IVec S_ 1 := constantI S_ 1 1#1
  let main_v7 : IVec S_ 1 := (fun x v => Host.reduce IntOp.andi x v reducesTo_S16x64x32x28x28_S_d0_1_2_3_4 h_S_) main_v6 main_c_1
  let main_v8 : IVec S_ 1 := andi main_v3 main_v7
  main_v8
-- ==== Kernel.lean ====
abbrev S16x64x32x28x28 : Shape := ⟨5, ![16, 64, 32, 28, 28]⟩
abbrev S16x64x32x784 : Shape := ⟨4, ![16, 64, 32, 784]⟩
abbrev S16x32x32 : Shape := ⟨3, ![16, 32, 32]⟩
abbrev S1x64x32x784 : Shape := ⟨4, ![1, 64, 32, 784]⟩
abbrev S1x32x32 : Shape := ⟨3, ![1, 32, 32]⟩
abbrev S64x32x784 : Shape := ⟨3, ![64, 32, 784]⟩
abbrev S64x32x32 : Shape := ⟨3, ![64, 32, 32]⟩
abbrev S32x32 : Shape := ⟨2, ![32, 32]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S16x64x32x28x28, .f32⟩
  | .hbm, ⟨1, _⟩ => ⟨S16x64x32x28x28, .f32⟩
  | .hbm, ⟨2, _⟩ => ⟨S16x64x32x784, .f32⟩
  | .hbm, ⟨3, _⟩ => ⟨S16x64x32x784, .f32⟩
  | .hbm, ⟨4, _⟩ => ⟨S16x32x32, .f32⟩
  | .hbm, ⟨5, _⟩ => ⟨S_, .f32⟩
  | .hbm, ⟨6, _⟩ => ⟨S32x32, .f32⟩
  | .hbm, ⟨7, _⟩ => ⟨S_, .f32⟩
  | .hbm, ⟨8, _⟩ => ⟨S32x32, .f32⟩
  | .hbm, ⟨9, _⟩ => ⟨S32x32, .f32⟩
  | .hbm, ⟨10, _⟩ => ⟨S1x32x32, .f32⟩
  | .hbm, ⟨11, _⟩ => ⟨S16x32x32, .f32⟩
  | .hbm, ⟨12, _⟩ => ⟨S16x32x32, .f32⟩
  | .hbm, ⟨13, _⟩ => ⟨S16x32x32, .f32⟩
  | .hbm, ⟨14, _⟩ => ⟨S_, .f32⟩
  | .hbm, ⟨15, _⟩ => ⟨S32x32, .f32⟩
  | .hbm, ⟨16, _⟩ => ⟨S1x32x32, .f32⟩
  | .hbm, ⟨17, _⟩ => ⟨S16x32x32, .f32⟩
  | .hbm, ⟨18, _⟩ => ⟨S16x32x32, .f32⟩
  | .hbm, ⟨19, _⟩ => ⟨S16x64x32x784, .f32⟩
  | .hbm, ⟨20, _⟩ => ⟨S16x64x32x28x28, .f32⟩
  | .local _ .vmem, ⟨0, _⟩ => ⟨S1x64x32x784, .f32⟩
  | .local _ .vmem, ⟨1, _⟩ => ⟨S1x64x32x784, .f32⟩
  | .local _ .vmem, ⟨2, _⟩ => ⟨S1x32x32, .f32⟩
  | .local _ .vmem, ⟨3, _⟩ => ⟨S1x32x32, .f32⟩
  | .local _ .vmem, ⟨4, _⟩ => ⟨S1x32x32, .f32⟩
  | .local _ .vmem, ⟨5, _⟩ => ⟨S1x32x32, .f32⟩
  | .local _ .vmem, ⟨6, _⟩ => ⟨S1x64x32x784, .f32⟩
  | .local _ .vmem, ⟨7, _⟩ => ⟨S1x64x32x784, .f32⟩
  | .local _ .vmem, ⟨8, _⟩ => ⟨S1x64x32x784, .f32⟩
  | .local _ .vmem, ⟨9, _⟩ => ⟨S1x64x32x784, .f32⟩
  | _, _ => ⟨S16x64x32x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x32x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x32x784 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16x64x32x28x28_S16x64x32x784 : S16x64x32x28x28.ShapeCasts S16x64x32x784
  inb_S1x64x32x784_S1x64x32x784_0_0_0_0 : ∀ a, (![0, 0, 0, 0] : Fin 4 → Nat) a + S1x64x32x784.size a ≤ S1x64x32x784.size a
  h_S1x64x32x784 : 0 < S1x64x32x784.numel
  shapeCasts_S1x64x32x784_S64x32x784 : S1x64x32x784.ShapeCasts S64x32x784
  bitsLt_bf16_f32 : FTy.bits .bf16 < FTy.bits .f32
  reduces_S64x32x32_S32x32 : S64x32x32.Reduces [0] S32x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S32x32_S1x32x32 : S32x32.ShapeCasts S1x32x32
  reducesTo_S16x32x32_S32x32_d0 : S16x32x32.ReducesTo [0] S32x32
  h_S_ : 0 < S_.numel
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16x32x32_0_1_2 : S1x32x32.BroadcastsInDim S16x32x32 (![0, 1, 2] : Fin 3 → Fin S16x32x32.rank)
  shapeCasts_S1x32x32_S1x32x32 : S1x32x32.ShapeCasts S1x32x32
  broadcasts_S1x32x32_S64x32x32 : S1x32x32.Broadcasts S64x32x32
  shapeCasts_S64x32x784_S1x64x32x784 : S64x32x784.ShapeCasts S1x64x32x784
  shapeCasts_S16x64x32x784_S16x64x32x28x28 : S16x64x32x784.ShapeCasts S16x64x32x28x28
  dot_S64x32x784_S64x32x784_S64x32x32_2_2_1_1_0_0_wf : DotDims.WF S64x32x784 S64x32x784 S64x32x32 [2] [2] [1] [1] [0] [0]
  dot_S64x32x32_S64x32x784_S64x32x784_2_1_1_2_0_0_wf : DotDims.WF S64x32x32 S64x32x784 S64x32x784 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x784.size a ≤ S16x64x32x784.size a
  hwx0_0 : ∀ i : grid0.Coords, EltTy.bits .f32 = 32 ∨ (Rect.block (s := S16x64x32x784) S1x64x32x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S16x32x32.size a
  hwx0_1 : ∀ i : grid0.Coords, EltTy.bits .f32 = 32 ∨ (Rect.block (s := S16x32x32) S1x32x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32.size a ≤ S16x32x32.size a
  hwx1_0 : ∀ i : grid1.Coords, EltTy.bits .f32 = 32 ∨ (Rect.block (s := S16x32x32) S1x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x32x784.size a ≤ S16x64x32x784.size a
  hwx1_1 : ∀ i : grid1.Coords, EltTy.bits .f32 = 32 ∨ (Rect.block (s := S16x64x32x784) S1x64x32x784.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x32x784.size a ≤ S16x64x32x784.size a
  hwx1_2 : ∀ i : grid1.Coords, EltTy.bits .f32 = 32 ∨ (Rect.block (s := S16x64x32x784) S1x64x32x784.size (cc1_transform_2 i) (hinb1_2 i)).WholeWords (EltTy.packing .f32)

variable [Facts₀]

def dot_S64x32x784_S64x32x784_S64x32x32_2_2_1_1_0_0 : DotDims S64x32x784 S64x32x784 S64x32x32 where
  lhsContracting := [2]
  rhsContracting := [2]
  lhsNonContracting := [1]
  rhsNonContracting := [1]
  lhsBatch := [0]
  rhsBatch := [0]
  wf := dot_S64x32x784_S64x32x784_S64x32x32_2_2_1_1_0_0_wf
def dot_S64x32x32_S64x32x784_S64x32x784_2_1_1_2_0_0 : DotDims S64x32x32 S64x32x784 S64x32x784 where
  lhsContracting := [2]
  rhsContracting := [1]
  lhsNonContracting := [1]
  rhsNonContracting := [2]
  lhsBatch := [0]
  rhsBatch := [0]
  wf := dot_S64x32x32_S64x32x784_S64x32x784_2_1_1_2_0_0_wf

abbrev win0_0 : Pipeline.Window sig grid0 :=
  Pipeline.Window.ofSpec (Memref.whole main_v0) S1x64x32x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v13) S1x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x32x784.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64x32x784.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x32x28x28 : Shape := ⟨5, ![16, 64, 32, 28, 28]⟩
abbrev S16x32x64x28x28 : Shape := ⟨5, ![16, 32, 64, 28, 28]⟩
abbrev S16x32x50176 : Shape := ⟨3, ![16, 32, 50176]⟩
abbrev S16x32x32 : Shape := ⟨3, ![16, 32, 32]⟩
abbrev S_ : Shape := ⟨0, ![]⟩
abbrev S32x32 : Shape := ⟨2, ![32, 32]⟩
abbrev S1x32x32 : Shape := ⟨3, ![1, 32, 32]⟩

abbrev nBuf : Space → Nat
  | .hbm => 24
  | .vmem => 0
  | .smem => 0
  | _ => 0

abbrev bufTy : (tb : Table) → Fin (tcTables nBuf tb) → BufTy
  | .hbm, ⟨0, _⟩ => ⟨S16x64x32x28x28, .f32⟩
  | .hbm, ⟨1, _⟩ => ⟨S16x64x32x28x28, .f32⟩
  | .hbm, ⟨2, _⟩ => ⟨S16x32x64x28x28, .f32⟩
  | .hbm, ⟨3, _⟩ => ⟨S16x32x50176, .f32⟩
  | .hbm, ⟨4, _⟩ => ⟨S16x32x64x28x28, .f32⟩
  | .hbm, ⟨5, _⟩ => ⟨S16x32x50176, .f32⟩
  | .hbm, ⟨6, _⟩ => ⟨S16x32x32, .f32⟩
  | .hbm, ⟨7, _⟩ => ⟨S_, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S1x32x32, .f32⟩
  | .hbm, ⟨13, _⟩ => ⟨S16x32x32, .f32⟩
  | .hbm, ⟨14, _⟩ => ⟨S16x32x32, .f32⟩
  | .hbm, ⟨15, _⟩ => ⟨S16x32x32, .f32⟩
  | .hbm, ⟨16, _⟩ => ⟨S_, .f32⟩
  | .hbm, ⟨17, _⟩ => ⟨S32x32, .f32⟩
  | .hbm, ⟨18, _⟩ => ⟨S1x32x32, .f32⟩
  | .hbm, ⟨19, _⟩ => ⟨S16x32x32, .f32⟩
  | .hbm, ⟨20, _⟩ => ⟨S16x32x32, .f32⟩
  | .hbm, ⟨21, _⟩ => ⟨S16x32x50176, .f32⟩
  | .hbm, ⟨22, _⟩ => ⟨S16x32x64x28x28, .f32⟩
  | .hbm, ⟨23, _⟩ => ⟨S16x64x32x28x28, .f32⟩
  | _, _ => ⟨S16x64x32x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S16x64x32x28x28_S16x32x64x28x28_0_2_1_3_4 : S16x64x32x28x28.Transposes [0, 2, 1, 3, 4] S16x32x64x28x28
  shapeCasts_S16x32x64x28x28_S16x32x50176 : S16x32x64x28x28.ShapeCasts S16x32x50176
  reducesTo_S16x32x32_S32x32_d0 : S16x32x32.ReducesTo [0] S32x32
  h_S_ : 0 < S_.numel
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16x32x32_0_1_2 : S1x32x32.BroadcastsInDim S16x32x32 (![0, 1, 2] : Fin 3 → Fin S16x32x32.rank)
  shapeCasts_S16x32x50176_S16x32x64x28x28 : S16x32x50176.ShapeCasts S16x32x64x28x28
  transposes_S16x32x64x28x28_S16x64x32x28x28_0_2_1_3_4 : S16x32x64x28x28.Transposes [0, 2, 1, 3, 4] S16x64x32x28x28
  dot_S16x32x50176_S16x32x50176_S16x32x32_2_2_1_1_0_0_wf : DotDims.WF S16x32x50176 S16x32x50176 S16x32x32 [2] [2] [1] [1] [0] [0]
  dot_S16x32x32_S16x32x50176_S16x32x50176_2_1_1_2_0_0_wf : DotDims.WF S16x32x32 S16x32x50176 S16x32x50176 [2] [1] [1] [2] [0] [0]

variable [Facts₀]

def dot_S16x32x50176_S16x32x50176_S16x32x32_2_2_1_1_0_0 : DotDims S16x32x50176 S16x32x50176 S16x32x32 where
  lhsContracting := [2]
  rhsContracting := [2]
  lhsNonContracting := [1]
  rhsNonContracting := [1]
  lhsBatch := [0]
  rhsBatch := [0]
  wf := dot_S16x32x50176_S16x32x50176_S16x32x32_2_2_1_1_0_0_wf
def dot_S16x32x32_S16x32x50176_S16x32x50176_2_1_1_2_0_0 : DotDims S16x32x32 S16x32x50176 S16x32x50176 where
  lhsContracting := [2]
  rhsContracting := [1]
  lhsNonContracting := [1]
  rhsNonContracting := [2]
  lhsBatch := [0]
  rhsBatch := [0]
  wf := dot_S16x32x32_S16x32x50176_S16x32x50176_2_1_1_2_0_0_wf

class Facts : Prop extends Facts₀ where

variable [Facts]
-- ==== Proof.KernelRun.lean ====
/-
  The idealized kernel's run with its result named.

  The program is two kernel regions among three stretches of host operations.  The generated frame follows core `c`'s
  buffer contents through the five segments (`Gen.W0` … `Gen.W5`) and, at the end, reads every unscoped buffer of the final
  state against the last boundary's contents `Gen.W5`; it keeps only the two argument arrays.  Here the same run is read at
  the result buffer as well: the final state holds `Gen.W5 m ρ c` at `main_v15`.
-/
import proofs.«118796_j50921132262135_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the two argument arrays as launched. -/
theorem run_result : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c)⟩)

end Cert.KernelIdeal.Hand

end
-- ==== Proof.RegionA.lean ====
/-
  Region A (the first kernel): what its output array holds.

  At grid point `b` the body loads the block x[b] of the re-laid argument, an array [64, 32, 784] (channel, frame, pixel),
  multiplies it with itself frame against frame inside each channel and adds the 64 channel products:
      m[b, q, k] = Σ_c Σ_d x[b, c, q, d] · x[b, c, k, d].
  The change of float format on the way into the product is the identity on extended reals, the product accumulates into
  zero, and the channel sum starts from zero.  Every point writes its [32, 32] block back, and the 16 blocks tile the
  output, so the output array is this one function of the input array (`gram`).
-/
import proofs.«118796_j50921132262135_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionA

open Cert.KernelIdeal Cert.KernelIdeal.Gen
open Idealize.ShloMosaic Idealize.ShloMosaic.TcCoe Idealize.SL.Sem Idealize.ShloMosaic.ValueIdx
open Idealize.ShloMosaic.Pipeline (Dat)

/-- The frame-against-frame products of one batch entry, summed over pixels and then over channels. -/
def gram (x : FVec Ideal S16x64x32x784 .f32) : FVec Ideal S16x32x32 .f32 :=
  fun i => ∑ c : Fin 64, ∑ d : Fin 784, x (ix4 (i 0) c (i 1) d) * x (ix4 (i 0) c (i 2) d)

theorem gram_apply (x : FVec Ideal S16x64x32x784 .f32) (b : Fin 16) (q k : Fin 32) :
    gram x (ix3 b q k) = ∑ c : Fin 64, ∑ d : Fin 784, x (ix4 b c q d) * x (ix4 b c k d) := rfl

/-! ## The body's payload at an index -/

/-- The operand indices of the batched product at an output index: the batch axis is shared, the left operand keeps the
    output's row, the right one its column, and both run over the contracted pixel axis. -/
theorem lhs_axis0 (i : S64x32x32.Idx) (p : dot_S64x32x784_S64x32x784_S64x32x32_2_2_1_1_0_0.contr.Idx) : (dot_S64x32x784_S64x32x784_S64x32x32_2_2_1_1_0_0.lhsIdx i p 0).val = (i 0).val := by
  unfold DotDims.lhsIdx
  rw [dif_pos (show (0 : Fin S64x32x784.rank) ∈ dot_S64x32x784_S64x32x784_S64x32x32_2_2_1_1_0_0.lhsBatch by decide)]
  rfl
theorem lhs_axis1 (i : S64x32x32.Idx) (p : dot_S64x32x784_S64x32x784_S64x32x32_2_2_1_1_0_0.contr.Idx) : (dot_S64x32x784_S64x32x784_S64x32x32_2_2_1_1_0_0.lhsIdx i p 1).val = (i 1).val := by
  unfold DotDims.lhsIdx
  rw [dif_neg (show ¬(1 : Fin S64x32x784.rank) ∈ dot_S64x32x784_S64x32x784_S64x32x32_2_2_1_1_0_0.lhsBatch by decide),
    dif_pos (show (1 : Fin S64x32x784.rank) ∈ dot_S64x32x784_S64x32x784_S64x32x32_2_2_1_1_0_0.lhsNonContracting by decide)]
  rfl
theorem lhs_axis2 (i : S64x32x32.Idx) (p : dot_S64x32x784_S64x32x784_S64x32x32_2_2_1_1_0_0.contr.Idx) : (dot_S64x32x784_S64x32x784_S64x32x32_2_2_1_1_0_0.lhsIdx i p 2).val = (p ⟨0, by decide⟩).val :=
  dot_S64x32x784_S64x32x784_S64x32x32_2_2_1_1_0_0.lhsIdx_val_of_single rfl i p
theorem rhs_axis0 (i : S64x32x32.Idx) (p : dot_S64x32x784_S64x32x784_S64x32x32_2_2_1_1_0_0.contr.Idx) : (dot_S64x32x784_S64x32x784_S64x32x32_2_2_1_1_0_0.rhsIdx i p 0).val = (i 0).val := by
  unfold DotDims.rhsIdx
  rw [dif_pos (show (0 : Fin S64x32x784.rank) ∈ dot_S64x32x784_S64x32x784_S64x32x32_2_2_1_1_0_0.rhsBatch by decide)]
  rfl
theorem rhs_axis1 (i : S64x32x32.Idx) (p : dot_S64x32x784_S64x32x784_S64x32x32_2_2_1_1_0_0.contr.Idx) : (dot_S64x32x784_S64x32x784_S64x32x32_2_2_1_1_0_0.rhsIdx i p 1).val = (i 2).val := by
  unfold DotDims.rhsIdx
  rw [dif_neg (show ¬(1 : Fin S64x32x784.rank) ∈ dot_S64x32x784_S64x32x784_S64x32x32_2_2_1_1_0_0.rhsBatch by decide),
    dif_pos (show (1 : Fin S64x32x784.rank) ∈ dot_S64x32x784_S64x32x784_S64x32x32_2_2_1_1_0_0.rhsNonContracting by decide)]
  rfl
theorem rhs_axis2 (i : S64x32x32.Idx) (p : dot_S64x32x784_S64x32x784_S64x32x32_2_2_1_1_0_0.contr.Idx) : (dot_S64x32x784_S64x32x784_S64x32x32_2_2_1_1_0_0.rhsIdx i p 2).val = (p ⟨0, by decide⟩).val :=
  dot_S64x32x784_S64x32x784_S64x32x32_2_2_1_1_0_0.rhsIdx_val_of_single rfl i p

/-- The batched product inside the body, at (c, q, k): the sum over the 784 pixels of channel c's frames q and k. -/
theorem channel_product (v : FVec Ideal S64x32x784 .bf16) (c : Fin 64) (q k : Fin 32) :
    matmul dot_S64x32x784_S64x32x784_S64x32x32_2_2_1_1_0_0 none v v (constant (F := Ideal) S64x32x32 .f32 0x00000000#32) (ix3 c q k)
      = ∑ d : Fin 784, v (ix3 c q d) * v (ix3 c k d) := by
  simp only [matmul]
  rw [Ideal.matmul_constant_zero_apply, ← Equiv.sum_comp (contrEquiv1 dot_S64x32x784_S64x32x784_S64x32x32_2_2_1_1_0_0 784 rfl rfl).symm]
  refine Finset.sum_congr rfl fun d _ => ?_
  have hd := contrEquiv1_symm_val dot_S64x32x784_S64x32x784_S64x32x32_2_2_1_1_0_0 784 rfl rfl d
  have el : dot_S64x32x784_S64x32x784_S64x32x32_2_2_1_1_0_0.lhsIdx (ix3 c q k) ((contrEquiv1 dot_S64x32x784_S64x32x784_S64x32x32_2_2_1_1_0_0 784 rfl rfl).symm d) = ix3 c q d :=
    funext fun a => Fin.ext (by
      match a with
      | ⟨0, _⟩ => exact lhs_axis0 _ _
      | ⟨1, _⟩ => exact lhs_axis1 _ _
      | ⟨2, _⟩ => exact (lhs_axis2 _ _).trans hd)
  have er : dot_S64x32x784_S64x32x784_S64x32x32_2_2_1_1_0_0.rhsIdx (ix3 c q k) ((contrEquiv1 dot_S64x32x784_S64x32x784_S64x32x32_2_2_1_1_0_0 784 rfl rfl).symm d) = ix3 c k d :=
    funext fun a => Fin.ext (by
      match a with
      | ⟨0, _⟩ => exact rhs_axis0 _ _
      | ⟨1, _⟩ => exact rhs_axis1 _ _
      | ⟨2, _⟩ => exact (rhs_axis2 _ _).trans hd)
  rw [el, er]

/-- The sum over the channel axis of a [64, 32, 32] value, at (q, k). -/
theorem channel_sum (s : FVec Ideal S64x32x32 .f32) (hacc : (0x00000000#32 : BitVec 32) = 0x00000000#32) (q k : Fin 32) :
    multiReduction .add [0] S32x32 s 0x00000000#32 reduces_S64x32x32_S32x32 (.inl rfl) hacc (ix2 q k)
      = ∑ c : Fin 64, s (ix3 c q k) := by
  refine (Ideal.multiReduction_add_single s 0x00000000#32 reduces_S64x32x32_S32x32 (.inl rfl) hacc (ix2 q k)).trans ?_
  refine Finset.sum_congr rfl fun c _ => congrArg s ?_
  exact funext fun a => Fin.ext (by match a with | ⟨0, _⟩ => rfl | ⟨1, _⟩ => rfl | ⟨2, _⟩ => rfl)

/-- The stored value of the body at (u, q, k), from the loaded block. -/
theorem payload_apply (x0 : Vec Ideal S1x64x32x784 .f32) (u : Fin 1) (q k : Fin 32) :
    k0_pay1 (F := Ideal) x0 (ix3 u q k)
      = ∑ c : Fin 64, ∑ d : Fin 784, x0 (ix4 (0 : Fin 1) c q d) * x0 (ix4 (0 : Fin 1) c k d) := by
  unfold k0_pay1
  refine (shapeCast_ab_1ab_apply _ _ u q k).trans ?_
  refine (channel_sum _ rfl q k).trans ?_
  refine Finset.sum_congr rfl fun c _ => ?_
  refine (channel_product _ c q k).trans ?_
  refine Finset.sum_congr rfl fun d _ => ?_
  rw [truncf_apply, truncf_apply, shapeCast_1abc_abc_apply, shapeCast_1abc_abc_apply]

/-! ## From the blocks to the array -/

section Array

variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- Both windows step along the batch axis with the grid point and sit at block 0 on every other axis. -/
theorem index_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 16 := by have h : cfg0.N = 16 := N_0; have := t.isLt; omega

/-- The input block at point `t` is batch entry `t` of the input array. -/
theorem input_block (c : Dev nD) (t : Fin cfg0.N) (cc : Fin 64) (q : Fin 32) (d : Fin 784) :
    (iblk0 V c 0 t : Vec Ideal S1x64x32x784 .f32) (ix4 (0 : Fin 1) cc q d)
      = (V c main_v0 : FVec Ideal S16x64x32x784 .f32) (ix4 ⟨t.val, point_lt t⟩ cc q d) := by
  obtain ⟨e0, e1, e2, e3, -, -, -⟩ := index_facts t
  show (V c main_v0 : FVec Ideal S16x64x32x784 .f32) (((cfg0.win 0).blk t).view.emb (ix4 (0 : Fin 1) cc q d)) = _
  refine congrArg _ (funext fun a => Fin.ext ?_)
  match a with
  | ⟨0, _⟩ => show win0_0.index t (0 : Fin 4) * 1 + 1 * 0 = t.val; omega
  | ⟨1, _⟩ => show win0_0.index t (1 : Fin 4) * 64 + 1 * cc.val = cc.val; omega
  | ⟨2, _⟩ => show win0_0.index t (2 : Fin 4) * 32 + 1 * q.val = q.val; omega
  | ⟨3, _⟩ => show win0_0.index t (3 : Fin 4) * 784 + 1 * d.val = d.val; omega

/-- Where an element of the output block at point `t` sits in the output array. -/
theorem output_block (t : Fin cfg0.N) (u : Fin 1) (q k : Fin 32) :
    (((cfg0.win 1).blk t).view.emb (ix3 u q k) : S16x32x32.Idx) = ix3 ⟨t.val, point_lt t⟩ q k := by
  obtain ⟨-, -, -, -, e0, e1, e2⟩ := index_facts t
  refine funext fun a => Fin.ext ?_
  match a with
  | ⟨0, _⟩ => show win0_1.index t (0 : Fin 3) * 1 + 1 * u.val = t.val; omega
  | ⟨1, _⟩ => show win0_1.index t (1 : Fin 3) * 32 + 1 * q.val = q.val; omega
  | ⟨2, _⟩ => show win0_1.index t (2 : Fin 3) * 32 + 1 * k.val = k.val; omega

/-- What point `t` writes back is block `t` of `gram` of the input array. -/
theorem flushed_eq (c : Dev nD) (t : Fin cfg0.N) :
    (dat0 V c).flushed 1 t = ((cfg0.win 1).blk t).view.read (Elt Ideal) (gram (V c main_v0)) := by
  show (cfg0.win 1).cut (grid0.coords t) ((dat0 V c).after 1 t) = _
  rw [after0_1]
  unfold out0_1
  rw [View.canon_unit_zero zeros3]
  simp only [View.ld_unit_zero (S := S1x64x32x784) zeros4]
  refine funext fun (j : S1x32x32.Idx) => ?_
  obtain ⟨u, q, k, rfl⟩ : ∃ (u : Fin 1) (q k : Fin 32), j = ix3 u q k := ⟨j 0, j 1, j 2, eq_ix3 j⟩
  refine (payload_apply (iblk0 V c 0 t) u q k).trans ?_
  show _ = gram (V c main_v0) (((cfg0.win 1).blk t).view.emb (ix3 u q k))
  rw [output_block t u q k]
  refine Eq.trans ?_ (gram_apply (V c main_v0) ⟨t.val, point_lt t⟩ q k).symm
  refine Finset.sum_congr rfl fun cc _ => Finset.sum_congr rfl fun d _ => ?_
  rw [input_block V c t cc q d, input_block V c t cc k d]

/-- An index of the output array is in point `t`'s block iff each coordinate is in the block's range on its axis. -/
theorem mem_block (t : Fin cfg0.N) (i : S16x32x32.Idx) :
    i ∈ ((cfg0.win 1).blk t).view.set ↔ ∀ a : Fin 3, win0_1.index t a * S1x32x32.size a ≤ (i a).val ∧ (i a).val < win0_1.index t a * S1x32x32.size a + S1x32x32.size a := by
  show i ∈ ((View.whole main_v2).slice (win0_1.rect t)).set ↔ _
  rw [View.set_slice_whole, Rect.mem_set_unit]
  exact Iff.rfl

/-- Every index of the output array lies in the block of the point named by its batch coordinate. -/
theorem covered (i : S16x32x32.Idx) : ∃ t : Fin cfg0.N, (cfg0.win 1).flush t = true ∧ i ∈ ((cfg0.win 1).blk t).view.set := by
  have h0 : (i 0).val < 16 := (i 0).isLt
  have h1 : (i 1).val < 32 := (i 1).isLt
  have h2 : (i 2).val < 32 := (i 2).isLt
  have hN : cfg0.N = 16 := N_0
  obtain ⟨t, ht⟩ : ∃ t : Fin cfg0.N, t.val = (i 0).val := ⟨⟨(i 0).val, by omega⟩, rfl⟩
  obtain ⟨-, -, -, -, e0, e1, e2⟩ := index_facts t
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 32 ≤ (i 1).val ∧ (i 1).val < win0_1.index t (1 : Fin 3) * 32 + 32; omega
  | ⟨2, _⟩ => show win0_1.index t (2 : Fin 3) * 32 ≤ (i 2).val ∧ (i 2).val < win0_1.index t (2 : Fin 3) * 32 + 32; omega

/-- The output array after the region, whatever the region found in its buffers: `gram` of the input array. -/
theorem array_eq (c : Dev nD) : (dat0 V c).arrAt 1 cfg0.N = gram (V c main_v0) :=
  (dat0 V c).arrAt_eq_of_cover 1 (gram (V c main_v0)) (fun t _ => flushed_eq V c t) covered

end Array

end Cert.KernelIdeal.RegionA

end
-- ==== Proof.RegionB.lean ====
/-
  Region B (the second kernel): what its output array holds.

  At grid point `b` the body loads the [32, 32] block s[b] of the weights and the block v[b] of the re-laid second argument, an
  array [64, 32, 784] (channel, frame, pixel); it repeats the weights over the 64 channels and multiplies, channel by channel,
  the weights with the frames:
      o[b, c, q, d] = Σ_k s[b, q, k] · v[b, c, k, d].
  The changes of float format are the identity on extended reals and the product accumulates into zero.  Every point writes its
  block back, and the 16 blocks tile the output, so the output array is this one function of the two input arrays (`mix`).
-/
import proofs.«118796_j50921132262135_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionB

open Cert.KernelIdeal Cert.KernelIdeal.Gen
open Idealize.ShloMosaic Idealize.ShloMosaic.TcCoe Idealize.SL.Sem Idealize.ShloMosaic.ValueIdx
open Idealize.ShloMosaic.Pipeline (Dat)

/-- Each frame of the output is the weighted sum, by one row of the weights, of the 32 frames of the same batch entry and channel. -/
def mix (s : FVec Ideal S16x32x32 .f32) (v : FVec Ideal S16x64x32x784 .f32) : FVec Ideal S16x64x32x784 .f32 :=
  fun i => ∑ k : Fin 32, s (ix3 (i 0) (i 2) k) * v (ix4 (i 0) (i 1) k (i 3))

theorem mix_apply (s : FVec Ideal S16x32x32 .f32) (v : FVec Ideal S16x64x32x784 .f32) (b : Fin 16) (c : Fin 64) (q : Fin 32) (d : Fin 784) :
    mix s v (ix4 b c q d) = ∑ k : Fin 32, s (ix3 b q k) * v (ix4 b c k d) := rfl

/-! ## The body's payload at an index -/

/-- The operand indices of the batched product at an output index (c, q, d): the batch axis is shared, the left operand keeps
    the output's row, the right one its column, the contracted axis is the left's last and the right's middle one. -/
theorem lhs_axis0 (i : S64x32x784.Idx) (p : dot_S64x32x32_S64x32x784_S64x32x784_2_1_1_2_0_0.contr.Idx) : (dot_S64x32x32_S64x32x784_S64x32x784_2_1_1_2_0_0.lhsIdx i p 0).val = (i 0).val := by
  unfold DotDims.lhsIdx
  rw [dif_pos (show (0 : Fin S64x32x32.rank) ∈ dot_S64x32x32_S64x32x784_S64x32x784_2_1_1_2_0_0.lhsBatch by decide)]
  rfl
theorem lhs_axis1 (i : S64x32x784.Idx) (p : dot_S64x32x32_S64x32x784_S64x32x784_2_1_1_2_0_0.contr.Idx) : (dot_S64x32x32_S64x32x784_S64x32x784_2_1_1_2_0_0.lhsIdx i p 1).val = (i 1).val := by
  unfold DotDims.lhsIdx
  rw [dif_neg (show ¬(1 : Fin S64x32x32.rank) ∈ dot_S64x32x32_S64x32x784_S64x32x784_2_1_1_2_0_0.lhsBatch by decide),
    dif_pos (show (1 : Fin S64x32x32.rank) ∈ dot_S64x32x32_S64x32x784_S64x32x784_2_1_1_2_0_0.lhsNonContracting by decide)]
  rfl
theorem lhs_axis2 (i : S64x32x784.Idx) (p : dot_S64x32x32_S64x32x784_S64x32x784_2_1_1_2_0_0.contr.Idx) : (dot_S64x32x32_S64x32x784_S64x32x784_2_1_1_2_0_0.lhsIdx i p 2).val = (p ⟨0, by decide⟩).val :=
  dot_S64x32x32_S64x32x784_S64x32x784_2_1_1_2_0_0.lhsIdx_val_of_single rfl i p
theorem rhs_axis0 (i : S64x32x784.Idx) (p : dot_S64x32x32_S64x32x784_S64x32x784_2_1_1_2_0_0.contr.Idx) : (dot_S64x32x32_S64x32x784_S64x32x784_2_1_1_2_0_0.rhsIdx i p 0).val = (i 0).val := by
  unfold DotDims.rhsIdx
  rw [dif_pos (show (0 : Fin S64x32x784.rank) ∈ dot_S64x32x32_S64x32x784_S64x32x784_2_1_1_2_0_0.rhsBatch by decide)]
  rfl
theorem rhs_axis1 (i : S64x32x784.Idx) (p : dot_S64x32x32_S64x32x784_S64x32x784_2_1_1_2_0_0.contr.Idx) : (dot_S64x32x32_S64x32x784_S64x32x784_2_1_1_2_0_0.rhsIdx i p 1).val = (p ⟨0, by decide⟩).val :=
  dot_S64x32x32_S64x32x784_S64x32x784_2_1_1_2_0_0.rhsIdx_val_of_single rfl i p
theorem rhs_axis2 (i : S64x32x784.Idx) (p : dot_S64x32x32_S64x32x784_S64x32x784_2_1_1_2_0_0.contr.Idx) : (dot_S64x32x32_S64x32x784_S64x32x784_2_1_1_2_0_0.rhsIdx i p 2).val = (i 2).val := by
  unfold DotDims.rhsIdx
  rw [dif_neg (show ¬(2 : Fin S64x32x784.rank) ∈ dot_S64x32x32_S64x32x784_S64x32x784_2_1_1_2_0_0.rhsBatch by decide),
    dif_pos (show (2 : Fin S64x32x784.rank) ∈ dot_S64x32x32_S64x32x784_S64x32x784_2_1_1_2_0_0.rhsNonContracting by decide)]
  rfl

/-- The batched product inside the body, at (c, q, d): the sum over the 32 frames k of the left operand at (c, q, k) times the
    right one at (c, k, d). -/
theorem channel_product (l : FVec Ideal S64x32x32 .bf16) (r : FVec Ideal S64x32x784 .bf16) (c : Fin 64) (q : Fin 32) (d : Fin 784) :
    matmul dot_S64x32x32_S64x32x784_S64x32x784_2_1_1_2_0_0 none l r (constant (F := Ideal) S64x32x784 .f32 0x00000000#32) (ix3 c q d)
      = ∑ k : Fin 32, l (ix3 c q k) * r (ix3 c k d) := by
  simp only [matmul]
  rw [Ideal.matmul_constant_zero_apply, ← Equiv.sum_comp (contrEquiv1 dot_S64x32x32_S64x32x784_S64x32x784_2_1_1_2_0_0 32 rfl rfl).symm]
  refine Finset.sum_congr rfl fun k _ => ?_
  have hk := contrEquiv1_symm_val dot_S64x32x32_S64x32x784_S64x32x784_2_1_1_2_0_0 32 rfl rfl k
  have el : dot_S64x32x32_S64x32x784_S64x32x784_2_1_1_2_0_0.lhsIdx (ix3 c q d) ((contrEquiv1 dot_S64x32x32_S64x32x784_S64x32x784_2_1_1_2_0_0 32 rfl rfl).symm k) = ix3 c q k :=
    funext fun a => Fin.ext (by
      match a with
      | ⟨0, _⟩ => exact lhs_axis0 _ _
      | ⟨1, _⟩ => exact lhs_axis1 _ _
      | ⟨2, _⟩ => exact (lhs_axis2 _ _).trans hk)
  have er : dot_S64x32x32_S64x32x784_S64x32x784_2_1_1_2_0_0.rhsIdx (ix3 c q d) ((contrEquiv1 dot_S64x32x32_S64x32x784_S64x32x784_2_1_1_2_0_0 32 rfl rfl).symm k) = ix3 c k d :=
    funext fun a => Fin.ext (by
      match a with
      | ⟨0, _⟩ => exact rhs_axis0 _ _
      | ⟨1, _⟩ => exact (rhs_axis1 _ _).trans hk
      | ⟨2, _⟩ => exact rhs_axis2 _ _)
  rw [el, er]

/-- A [1, 32, 32] value repeated over 64 channels reads, at (c, q, k), the value at (0, q, k). -/
theorem repeat_apply (w : FVec Ideal S1x32x32 .bf16) (c : Fin 64) (q k : Fin 32) :
    broadcastTo S64x32x32 w broadcasts_S1x32x32_S64x32x32 (ix3 c q k) = w (ix3 (0 : Fin 1) q k) :=
  broadcastTo_apply w broadcasts_S1x32x32_S64x32x32 (ix3 c q k) (ix3 (0 : Fin 1) q k) fun a => by
    match a with
    | ⟨0, _⟩ => show (0 : Nat) = if (1 : Nat) = 1 then 0 else c.val; rw [if_pos rfl]
    | ⟨1, _⟩ => show q.val = if (32 : Nat) = 1 then 0 else q.val; rw [if_neg (by decide)]
    | ⟨2, _⟩ => show k.val = if (32 : Nat) = 1 then 0 else k.val; rw [if_neg (by decide)]

/-- The stored value of the body at (u, c, q, d), from the two loaded blocks. -/
theorem payload_apply (s0 : Vec Ideal S1x32x32 .f32) (v0 : Vec Ideal S1x64x32x784 .f32) (u : Fin 1) (c : Fin 64) (q : Fin 32) (d : Fin 784) :
    k1_pay1 (F := Ideal) s0 v0 (ix4 u c q d)
      = ∑ k : Fin 32, s0 (ix3 (0 : Fin 1) q k) * v0 (ix4 (0 : Fin 1) c k d) := by
  unfold k1_pay1
  refine (shapeCast_abc_1abc_apply _ _ u c q d).trans ?_
  refine (channel_product _ _ c q d).trans ?_
  refine Finset.sum_congr rfl fun k _ => ?_
  rw [repeat_apply, shapeCast_self, shapeCast_ab_1ab_apply, truncf_apply, shapeCast_1ab_ab_apply, truncf_apply,
    shapeCast_1abc_abc_apply]

/-! ## From the blocks to the array -/

section Array

variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- All three windows step along the batch axis with the grid point and sit at block 0 on every other axis. -/
theorem index_facts : ∀ t : Fin cfg1.N, win1_0.index t (0 : Fin 3) = t.val ∧ win1_0.index t (1 : Fin 3) = 0 ∧ win1_0.index t (2 : Fin 3) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

theorem point_lt (t : Fin cfg1.N) : t.val < 16 := by have h : cfg1.N = 16 := N_1; have := t.isLt; omega

/-- The weights' block at point `t` is batch entry `t` of the weights. -/
theorem weights_block (c : Dev nD) (t : Fin cfg1.N) (q k : Fin 32) :
    (iblk1 V c 0 t : Vec Ideal S1x32x32 .f32) (ix3 (0 : Fin 1) q k)
      = (V c main_v13 : FVec Ideal S16x32x32 .f32) (ix3 ⟨t.val, point_lt t⟩ q k) := by
  obtain ⟨e0, e1, e2, -⟩ := index_facts t
  show (V c main_v13 : FVec Ideal S16x32x32 .f32) (((cfg1.win 0).blk t).view.emb (ix3 (0 : Fin 1) q k)) = _
  refine congrArg _ (funext fun a => Fin.ext ?_)
  match a with
  | ⟨0, _⟩ => show win1_0.index t (0 : Fin 3) * 1 + 1 * 0 = t.val; omega
  | ⟨1, _⟩ => show win1_0.index t (1 : Fin 3) * 32 + 1 * q.val = q.val; omega
  | ⟨2, _⟩ => show win1_0.index t (2 : Fin 3) * 32 + 1 * k.val = k.val; omega

/-- The frames' block at point `t` is batch entry `t` of the frames. -/
theorem frames_block (c : Dev nD) (t : Fin cfg1.N) (cc : Fin 64) (k : Fin 32) (d : Fin 784) :
    (iblk1 V c 1 t : Vec Ideal S1x64x32x784 .f32) (ix4 (0 : Fin 1) cc k d)
      = (V c main_v1 : FVec Ideal S16x64x32x784 .f32) (ix4 ⟨t.val, point_lt t⟩ cc k d) := by
  obtain ⟨-, -, -, e0, e1, e2, e3, -⟩ := index_facts t
  show (V c main_v1 : FVec Ideal S16x64x32x784 .f32) (((cfg1.win 1).blk t).view.emb (ix4 (0 : Fin 1) cc k d)) = _
  refine congrArg _ (funext fun a => Fin.ext ?_)
  match a with
  | ⟨0, _⟩ => show win1_1.index t (0 : Fin 4) * 1 + 1 * 0 = t.val; omega
  | ⟨1, _⟩ => show win1_1.index t (1 : Fin 4) * 64 + 1 * cc.val = cc.val; omega
  | ⟨2, _⟩ => show win1_1.index t (2 : Fin 4) * 32 + 1 * k.val = k.val; omega
  | ⟨3, _⟩ => show win1_1.index t (3 : Fin 4) * 784 + 1 * d.val = d.val; omega

/-- Where an element of the output block at point `t` sits in the output array. -/
theorem output_block (t : Fin cfg1.N) (u : Fin 1) (cc : Fin 64) (q : Fin 32) (d : Fin 784) :
    (((cfg1.win 2).blk t).view.emb (ix4 u cc q d) : S16x64x32x784.Idx) = ix4 ⟨t.val, point_lt t⟩ cc q d := by
  obtain ⟨-, -, -, -, -, -, -, e0, e1, e2, e3⟩ := index_facts t
  refine funext fun a => Fin.ext ?_
  match a with
  | ⟨0, _⟩ => show win1_2.index t (0 : Fin 4) * 1 + 1 * u.val = t.val; omega
  | ⟨1, _⟩ => show win1_2.index t (1 : Fin 4) * 64 + 1 * cc.val = cc.val; omega
  | ⟨2, _⟩ => show win1_2.index t (2 : Fin 4) * 32 + 1 * q.val = q.val; omega
  | ⟨3, _⟩ => show win1_2.index t (3 : Fin 4) * 784 + 1 * d.val = d.val; omega

/-- What point `t` writes back is block `t` of `mix` of the two input arrays. -/
theorem flushed_eq (c : Dev nD) (t : Fin cfg1.N) :
    (dat1 V c).flushed 2 t = ((cfg1.win 2).blk t).view.read (Elt Ideal) (mix (V c main_v13) (V c main_v1)) := by
  show (cfg1.win 2).cut (grid1.coords t) ((dat1 V c).after 2 t) = _
  rw [after1_2]
  unfold out1_2
  rw [View.canon_unit_zero zeros4]
  simp only [View.ld_unit_zero (S := S1x32x32) zeros3, View.ld_unit_zero (S := S1x64x32x784) zeros4]
  refine funext fun (j : S1x64x32x784.Idx) => ?_
  obtain ⟨u, cc, q, d, rfl⟩ : ∃ (u : Fin 1) (cc : Fin 64) (q : Fin 32) (d : Fin 784), j = ix4 u cc q d := ⟨j 0, j 1, j 2, j 3, eq_ix4 j⟩
  refine (payload_apply (iblk1 V c 0 t) (iblk1 V c 1 t) u cc q d).trans ?_
  show _ = mix (V c main_v13) (V c main_v1) (((cfg1.win 2).blk t).view.emb (ix4 u cc q d))
  rw [output_block t u cc q d]
  refine Eq.trans ?_ (mix_apply (V c main_v13) (V c main_v1) ⟨t.val, point_lt t⟩ cc q d).symm
  refine Finset.sum_congr rfl fun k _ => ?_
  rw [weights_block V c t q k, frames_block V c t cc k d]

/-- An index of the output array is in point `t`'s block iff each coordinate is in the block's range on its axis. -/
theorem mem_block (t : Fin cfg1.N) (i : S16x64x32x784.Idx) :
    i ∈ ((cfg1.win 2).blk t).view.set ↔ ∀ a : Fin 4, win1_2.index t a * S1x64x32x784.size a ≤ (i a).val ∧ (i a).val < win1_2.index t a * S1x64x32x784.size a + S1x64x32x784.size a := by
  show i ∈ ((View.whole main_v14).slice (win1_2.rect t)).set ↔ _
  rw [View.set_slice_whole, Rect.mem_set_unit]
  exact Iff.rfl

/-- Every index of the output array lies in the block of the point named by its batch coordinate. -/
theorem covered (i : S16x64x32x784.Idx) : ∃ t : Fin cfg1.N, (cfg1.win 2).flush t = true ∧ i ∈ ((cfg1.win 2).blk t).view.set := by
  have h0 : (i 0).val < 16 := (i 0).isLt
  have h1 : (i 1).val < 64 := (i 1).isLt
  have h2 : (i 2).val < 32 := (i 2).isLt
  have h3 : (i 3).val < 784 := (i 3).isLt
  have hN : cfg1.N = 16 := N_1
  obtain ⟨t, ht⟩ : ∃ t : Fin cfg1.N, t.val = (i 0).val := ⟨⟨(i 0).val, by omega⟩, rfl⟩
  obtain ⟨-, -, -, -, -, -, -, e0, e1, e2, e3⟩ := index_facts t
  refine ⟨t, flush1_2 t, ?_⟩
  rw [mem_block]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 64 ≤ (i 1).val ∧ (i 1).val < win1_2.index t (1 : Fin 4) * 64 + 64; omega
  | ⟨2, _⟩ => show win1_2.index t (2 : Fin 4) * 32 ≤ (i 2).val ∧ (i 2).val < win1_2.index t (2 : Fin 4) * 32 + 32; omega
  | ⟨3, _⟩ => show win1_2.index t (3 : Fin 4) * 784 ≤ (i 3).val ∧ (i 3).val < win1_2.index t (3 : Fin 4) * 784 + 784; omega

/-- The output array after the region, whatever the region found in its buffers: `mix` of the two input arrays. -/
theorem array_eq (c : Dev nD) : (dat1 V c).arrAt 2 cfg1.N = mix (V c main_v13) (V c main_v1) :=
  (dat1 V c).arrAt_eq_of_cover 2 (mix (V c main_v13) (V c main_v1)) (fun t _ => flushed_eq V c t) covered

end Array

end Cert.KernelIdeal.RegionB

end
-- ==== Proof.Result.lean ====
/-
  The result of the idealized kernel as ONE function of the two argument arrays.

  With x and v the arguments re-laid as [16, 64, 32, 784] (the 28 × 28 pixels of a frame merged into one axis):
      m = gram x                 frame-against-frame products, summed over pixels and channels       [16, 32, 32]
      s = batchSoftmax m         the softmax of m along the BATCH axis, as the host operations between
                                 the two regions compute it (maximum, shift, exponential, sum, quotient)
      o = mix s v                every frame replaced by the s-weighted sum of the frames            [16, 64, 32, 784]
  and the result is o with the pixel axis split back into 28 × 28.  The softmax is never opened: the kernel's program and the
  reference apply the same host operations to m, so it is carried as one function.
-/
import proofs.«118796_j50921132262135_1_alg».proof.Proof.RegionA
import proofs.«118796_j50921132262135_1_alg».proof.Proof.RegionB

noncomputable section

namespace Cert.KernelIdeal.Result

open Cert.KernelIdeal Cert.KernelIdeal.Gen
open Idealize.ShloMosaic Idealize.ShloMosaic.TcCoe Idealize.SL.Sem

/-- The softmax along the batch axis of a [16, 32, 32] array, operation by operation as the host computes it: the maximum over
    the batch (from −∞, and once more against −∞), the shifted exponentials, their sum over the batch (from 0), the quotient. -/
def batchSoftmax (y : FVec Ideal S16x32x32 .f32) : FVec Ideal S16x32x32 .f32 :=
  let top : FVec Ideal S32x32 .f32 :=
    maximumf (broadcastInDim S32x32 ![] bcast_S_S32x32 (constant (F := Ideal) S_ .f32 0xFF800000#32))
      (Host.reduce (FloatOps.maximumf (F := Ideal) (φ := .f32)) y (constant (F := Ideal) S_ .f32 0xFF800000#32) reducesTo_S16x32x32_S32x32_d0 h_S_)
  let e : FVec Ideal S16x32x32 .f32 :=
    Host.exp (F := Ideal) (subf y (broadcastInDim S16x32x32 ![0, 1, 2] bcast_S1x32x32_S16x32x32_0_1_2
      (broadcastInDim S1x32x32 ![1, 2] bcast_S32x32_S1x32x32_1_2 top)))
  Host.divf (F := Ideal) e (broadcastInDim S16x32x32 ![0, 1, 2] bcast_S1x32x32_S16x32x32_0_1_2
    (broadcastInDim S1x32x32 ![1, 2] bcast_S32x32_S1x32x32_1_2
      (Host.reduceAdd (F := Ideal) e (constant (F := Ideal) S_ .f32 0x00000000#32) reducesTo_S16x32x32_S32x32_d0 h_S_)))

/-- The kernel's result array from its two argument arrays. -/
def result (x0 x1 : FVec Ideal S16x64x32x28x28 .f32) : FVec Ideal S16x64x32x28x28 .f32 :=
  shapeCast S16x64x32x28x28
    (RegionB.mix (batchSoftmax (RegionA.gram (shapeCast S16x64x32x784 x0 shapeCasts_S16x64x32x28x28_S16x64x32x784)))
      (shapeCast S16x64x32x784 x1 shapeCasts_S16x64x32x28x28_S16x64x32x784))
    shapeCasts_S16x64x32x784_S16x64x32x28x28

end Cert.KernelIdeal.Result

end
-- ==== Proof.KernelValue.lean ====
/-
  The idealized kernel's result buffer after the run is `Result.result` of the two argument arrays.

  The generated frame names core `c`'s buffer contents at each of the six segment boundaries (`Gen.W0` … `Gen.W5`).  Read
  backwards from the result buffer:
    * the last stretch splits the pixel axis of the second region's output array;
    * that array is `mix` of the weights and the re-laid second argument, as the second region found them;
    * the weights were written by the middle stretch: the batch softmax of the first region's output array; the re-laid
      second argument was written by the first stretch and touched by nothing since;
    * the first region's output array is `gram` of the re-laid first argument, written by the first stretch.
-/
import proofs.«118796_j50921132262135_1_alg».proof.Proof.Result
import Idealize.ShloMosaic.Lib.StableHlo.Run

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch re-lays the first argument. -/
theorem entry_x (c : Dev nD) : (V1 m ρ c main_v0 : FVec Ideal S16x64x32x784 .f32)
    = shapeCast S16x64x32x784 (m ((c.tc : Thread nD τ).loc main_arg0)) shapeCasts_S16x64x32x28x28_S16x64x32x784 := by
  show StableHlo.after hostOps0 (W0 m ρ c) (Proc.devRef .tc main_v0) = _
  after_results
  rfl

/-- The first region's output array. -/
theorem gram_array (c : Dev nD) : (W2 m ρ c (Proc.devRef .tc main_v2) : FVec Ideal S16x32x32 .f32)
    = RegionA.gram (shapeCast S16x64x32x784 (m ((c.tc : Thread nD τ).loc main_arg0)) shapeCasts_S16x64x32x28x28_S16x64x32x784) := by
  refine (W2_arr m ρ c 1).trans ?_
  rw [RegionA.array_eq (V1 m ρ) c, entry_x m ρ c]

/-- The second argument re-laid by the first stretch, untouched until the second region reads it. -/
theorem entry_v (c : Dev nD) : (V3 m ρ c main_v1 : FVec Ideal S16x64x32x784 .f32)
    = shapeCast S16x64x32x784 (m ((c.tc : Thread nD τ).loc main_arg1)) shapeCasts_S16x64x32x28x28_S16x64x32x784 := by
  have h3 : W3 m ρ c (Proc.devRef .tc main_v1) = W2 m ρ c (Proc.devRef .tc main_v1) := by
    show StableHlo.after hostOps1 (W2 m ρ c) (Proc.devRef .tc main_v1) = _
    after_results
  have h2 : W2 m ρ c (Proc.devRef .tc main_v1) = W1 m ρ c (Proc.devRef .tc main_v1) := W2_of_ne m ρ c main_v1 (by decide)
  have h1 : (W1 m ρ c (Proc.devRef .tc main_v1) : FVec Ideal S16x64x32x784 .f32)
      = shapeCast S16x64x32x784 (m ((c.tc : Thread nD τ).loc main_arg1)) shapeCasts_S16x64x32x28x28_S16x64x32x784 := by
    show StableHlo.after hostOps0 (W0 m ρ c) (Proc.devRef .tc main_v1) = _
    after_results
    rfl
  exact h3.trans (h2.trans h1)

/-- The weights the second region reads: the batch softmax of the first region's output array. -/
theorem entry_s (c : Dev nD) : (V3 m ρ c main_v13 : FVec Ideal S16x32x32 .f32)
    = Result.batchSoftmax (W2 m ρ c (Proc.devRef .tc main_v2)) := by
  show StableHlo.after hostOps1 (W2 m ρ c) (Proc.devRef .tc main_v13) = _
  generalize W2 m ρ c = Z
  after_results
  rfl

/-- The result buffer at the last boundary. -/
theorem result_eq (c : Dev nD) : (W5 m ρ c (Proc.devRef .tc main_v15) : FVec Ideal S16x64x32x28x28 .f32)
    = Result.result (m ((c.tc : Thread nD τ).loc main_arg0)) (m ((c.tc : Thread nD τ).loc main_arg1)) := by
  have h5 : (W5 m ρ c (Proc.devRef .tc main_v15) : FVec Ideal S16x64x32x28x28 .f32)
      = shapeCast S16x64x32x28x28 (W4 m ρ c (Proc.devRef .tc main_v14)) shapeCasts_S16x64x32x784_S16x64x32x28x28 := by
    show StableHlo.after hostOps2 (W4 m ρ c) (Proc.devRef .tc main_v15) = _
    generalize W4 m ρ c = Z
    after_results
    rfl
  have h4 : (W4 m ρ c (Proc.devRef .tc main_v14) : FVec Ideal S16x64x32x784 .f32)
      = RegionB.mix (V3 m ρ c main_v13) (V3 m ρ c main_v1) :=
    (W4_arr m ρ c 2).trans (RegionB.array_eq (V3 m ρ) c)
  rw [h5, h4, entry_s m ρ c, entry_v m ρ c, gram_array m ρ c]
  rfl

end Cert.KernelIdeal.Value

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.ReferenceValue.lean ====
/-
  The reference's result is the same function of the two argument arrays as the kernel's.

  The reference moves the frame axis in front of the channel axis, flattens (channel, row, column) into one axis of
  64 · 28 · 28 = 50176, contracts that axis in ONE dot product per pair of frames, applies the batch softmax, contracts the
  frame axis against the flattened second argument, and undoes the re-layout.  The kernel keeps the channel axis and flattens
  only (row, column) into 784.  Index by index:
    * a flat index k′ < 50176 is channel k′ / 784 and pixel k′ mod 784, so the one long sum is the sum over channels of the
      sums over pixels (`Cert.Lib.sum_fin_blocks`; a regrouping of a finite sum, valid for extended reals as they are);
    * the softmax is the same host operations applied to equal arrays;
    * the second contraction runs over the same 32 frames on both sides, and its operands are the same entries of the arguments.
-/
import proofs.«118796_j50921132262135_1_alg».proof.Proof.Gen.ReferenceIdeal.Read
import proofs.«118796_j50921132262135_1_alg».proof.Proof.Result
import proofs.«118796_j50921132262135_1_alg».proof.Proof.LibSumBlocks
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx
open Cert.Lib (blockIdx sum_fin_blocks)

/-- The first argument re-laid as the kernel reads it: [16, 64, 32, 784]. -/
abbrev relaid (x : FVec Ideal S16x64x32x28x28 .f32) : FVec Ideal Cert.KernelIdeal.S16x64x32x784 .f32 :=
  shapeCast Cert.KernelIdeal.S16x64x32x784 x Cert.KernelIdeal.Facts₀.shapeCasts_S16x64x32x28x28_S16x64x32x784

/-- The reference's flattened, frame-major copy of an argument at (b, frame, channel·784 + pixel) is the kernel's re-laid copy
    at (b, channel, frame, pixel): both are the argument at (b, channel, frame, pixel / 28, pixel mod 28). -/
theorem flat_entry (x : FVec Ideal S16x64x32x28x28 .f32) (j : S16x32x50176.Idx) (b : Fin 16) (f : Fin 32) (c : Fin 64) (d : Fin 784)
    (h0 : (j 0).val = b.val) (h1 : (j 1).val = f.val) (h2 : (j 2).val = c.val * 784 + d.val) :
    x (idx_main_v0 (idx_main_v1 j)) = relaid x (ix4 b c f d) := by
  refine (shapeCast_apply x Cert.KernelIdeal.Facts₀.shapeCasts_S16x64x32x28x28_S16x64x32x784 (ix4 b c f d) (idx_main_v0 (idx_main_v1 j)) ?_).symm
  rw [Shape.rowMajor_val_five, Shape.rowMajor_val_four]
  have hb : b.val < 16 := b.isLt
  have hf : f.val < 32 := f.isLt
  have hc : c.val < 64 := c.isLt
  have hd : d.val < 784 := d.isLt
  show (((((((j 0).val * 32 + (j 1).val) * 50176 + (j 2).val) / 1605632) * 64
      + (((j 0).val * 32 + (j 1).val) * 50176 + (j 2).val) / 784 % 64) * 32
      + (((j 0).val * 32 + (j 1).val) * 50176 + (j 2).val) / 50176 % 32) * 28
      + (((j 0).val * 32 + (j 1).val) * 50176 + (j 2).val) / 28 % 28) * 28
      + (((j 0).val * 32 + (j 1).val) * 50176 + (j 2).val) % 28
    = ((b.val * 64 + c.val) * 32 + f.val) * 784 + d.val
  rw [h0, h1, h2]
  omega

/-- The reference's first contraction is the kernel's `gram` of the re-laid argument. -/
theorem gram_eq (x0 : FVec Ideal S16x64x32x28x28 .f32) :
    val_main_v4 (F := Ideal) x0 = Cert.KernelIdeal.RegionA.gram (relaid x0) := by
  funext i
  obtain ⟨b, q, k, rfl⟩ : ∃ (b : Fin 16) (q k : Fin 32), i = ix3 b q k := ⟨i 0, i 1, i 2, eq_ix3 i⟩
  rw [val_main_v4_apply, sum_fin_blocks (a := 64) (b := 784) (n := 50176) rfl, Cert.KernelIdeal.RegionA.gram_apply]
  refine Finset.sum_congr rfl fun c _ => Finset.sum_congr rfl fun d _ => ?_
  rw [val_main_v1_apply, val_main_v1_apply, val_main_v0_apply, val_main_v0_apply,
    flat_entry x0 _ b q c d rfl rfl rfl, flat_entry x0 _ b k c d rfl rfl rfl]

/-- The reference's weights are the batch softmax of that array. -/
theorem weights_eq (x0 : FVec Ideal S16x64x32x28x28 .f32) :
    val_main_v15 (F := Ideal) x0 = Cert.KernelIdeal.Result.batchSoftmax (Cert.KernelIdeal.RegionA.gram (relaid x0)) :=
  (show val_main_v15 (F := Ideal) x0 = Cert.KernelIdeal.Result.batchSoftmax (val_main_v4 (F := Ideal) x0) from rfl).trans
    (congrArg Cert.KernelIdeal.Result.batchSoftmax (gram_eq x0))

/-- The reference's result array is the kernel's. -/
theorem result_eq (x0 x1 : FVec Ideal S16x64x32x28x28 .f32) :
    val_main_v18 (F := Ideal) x0 x1 = Cert.KernelIdeal.Result.result x0 x1 := by
  funext i
  obtain ⟨b, c, t, h, w, rfl⟩ : ∃ (b : Fin 16) (c : Fin 64) (t : Fin 32) (h w : Fin 28), i = ix5 b c t h w :=
    ⟨i 0, i 1, i 2, i 3, i 4, eq_ix5 i⟩
  have hb : b.val < 16 := b.isLt
  have hc : c.val < 64 := c.isLt
  have ht : t.val < 32 := t.isLt
  have hh : h.val < 28 := h.isLt
  have hw : w.val < 28 := w.isLt
  have hd : h.val * 28 + w.val < 784 := by omega
  rw [val_main_v18_apply, val_main_v17_apply, val_main_v16_apply, weights_eq]
  unfold Cert.KernelIdeal.Result.result
  refine Eq.trans ?_ (shapeCast_apply _ Cert.KernelIdeal.Facts₀.shapeCasts_S16x64x32x784_S16x64x32x28x28 (ix5 b c t h w)
    (ix4 b c t (⟨h.val * 28 + w.val, hd⟩ : Fin 784)) (by
      rw [Shape.rowMajor_val_four, Shape.rowMajor_val_five]
      show ((b.val * 64 + c.val) * 32 + t.val) * 784 + (h.val * 28 + w.val)
        = (((b.val * 64 + c.val) * 32 + t.val) * 28 + h.val) * 28 + w.val
      omega)).symm
  rw [Cert.KernelIdeal.RegionB.mix_apply]
  refine Finset.sum_congr rfl fun k _ => ?_
  have hk : k.val < 32 := k.isLt
  refine congrArg₂ (· * ·) (congrArg _ (funext fun a => Fin.ext ?_)) ?_
  · match a with
    | ⟨0, _⟩ => show ((((b.val * 32 + t.val) * 64 + c.val) * 28 + h.val) * 28 + w.val) / 1605632 = b.val; omega
    | ⟨1, _⟩ => show ((((b.val * 32 + t.val) * 64 + c.val) * 28 + h.val) * 28 + w.val) / 50176 % 32 = t.val; omega
    | ⟨2, _⟩ => rfl
  · rw [val_main_v3_apply, val_main_v2_apply]
    refine flat_entry x1 _ b k c ⟨h.val * 28 + w.val, hd⟩ ?_ rfl ?_
    · show ((((b.val * 32 + t.val) * 64 + c.val) * 28 + h.val) * 28 + w.val) / 1605632 = b.val; omega
    · show ((((b.val * 32 + t.val) * 64 + c.val) * 28 + h.val) * 28 + w.val) % 50176 = c.val * 784 + (h.val * 28 + w.val); omega

end Cert.ReferenceIdeal.Hand

end
-- ==== Proof.lean ====
/-
  The certificate of one temporal-attention kernel against its jnp reference, over the extended reals.

  Arguments x, v : f32[16, 64, 32, 28, 28] (batch, channel, frame, row, column).  Both programs compute
      m[b, q, k]       = Σ_{c, h, w} x[b, c, q, h, w] · x[b, c, k, h, w]          (frame against frame)
      s                = softmax of m along the BATCH axis
      a[b, c, q, h, w] = Σ_k s[b, q, k] · v[b, c, k, h, w].
  The kernel merges (row, column) into one pixel axis of 784 and runs two grid-16 kernel regions, one batch entry per point: the
  first forms m with one product per channel and a sum over the 64 channels, the second applies s channel by channel; the
  softmax is host operations between them.  The reference moves the frame axis forward, flattens (channel, row, column) into one
  axis of 50176 and uses one contraction for each of the two products.

  At the ideal instance a change of float format is the identity and every sum is exact, so the only difference is the grouping
  of the first sum — over channels of sums over pixels, against one sum over 50176 flat positions — and the order in which the
  layout changes are applied.  Regrouping a finite sum needs no finiteness of its terms, so the precondition is not used.

  Modules: KernelRun (the kernel's run with its result buffer named), RegionA and RegionB (each region's output array as one
  function of its input arrays), Result (the result as one function of the arguments, the softmax kept as one named function),
  KernelValue (the result buffer is that function), LibSumBlocks (the regrouping of a sum), ReferenceValue (the reference's
  result is the same function).  The three frames: the two kernel programs' are the generated frame certificates, the
  reference's is its generated run with the result dropped.  No rewrite was applied when the idealized kernel was printed, so
  there is nothing to preserve.
-/
import proofs.«118796_j50921132262135_1_alg».proof.Defs
import proofs.«118796_j50921132262135_1_alg».proof.Proof.Gen.Kernel
import proofs.«118796_j50921132262135_1_alg».proof.Proof.Gen.Kernel.Frame
import proofs.«118796_j50921132262135_1_alg».proof.Proof.Gen.KernelIdeal
import proofs.«118796_j50921132262135_1_alg».proof.Proof.Gen.KernelIdeal.Frame
import proofs.«118796_j50921132262135_1_alg».proof.Proof.Gen.ReferenceIdeal
import proofs.«118796_j50921132262135_1_alg».proof.Proof.Gen.Pre_finite_inputs
import proofs.«118796_j50921132262135_1_alg».proof.Proof.Gen.ReferenceIdeal.Run
import proofs.«118796_j50921132262135_1_alg».proof.Proof.Gen.ReferenceIdeal.Read
import proofs.«118796_j50921132262135_1_alg».proof.Proof.KernelRun
import proofs.«118796_j50921132262135_1_alg».proof.Proof.KernelValue
import proofs.«118796_j50921132262135_1_alg».proof.Proof.ReferenceValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with `Result.result` of the (agreeing) argument arrays in their result buffers. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Value.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v18_eq _ _).trans (Cert.ReferenceIdeal.Hand.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
